-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S1024x128 : Shape := ⟨2, ![1024, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg5 : FVec F S128 .f32) (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_cst_14 : FVec F S_ .f32 := constant S_ .f32 0x00000000#32
  let main_v39 : FVec F S128 .f32 := broadcastInDim S128 ![] bcast_S_S128 main_cst_14
  let main_v40 : IVec S128 1 := cmpf .oge main_arg5 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v38 main_v41
  main_v42

def fn_part1 {F : FTy → Type} [FloatOps F] (main_arg4 : FVec F S128 .f32) (main_arg5 : FVec F S128 .f32) (main_arg6 : FVec F S2x128 .f32) (main_arg7 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg5 main_arg7 main_v33

def fn {F : FTy → Type} [FloatOps F] (main_arg0 : FVec F S256x128 .f32) (main_arg1 : FVec F S1024x128 .f32) (main_arg2 : FVec F S128 .f32) (main_arg3 : FVec F S128 .f32) (main_arg4 : FVec F S128 .f32) (main_arg5 : FVec F S128 .f32) (main_arg6 : FVec F S2x128 .f32) (main_arg7 : FVec F S2 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S256x128 : Shape := ⟨2, ![256, 128]⟩
abbrev S1024x128 : Shape := ⟨2, ![1024, 128]⟩
abbrev S128 : Shape := ⟨1, ![128]⟩
abbrev S2x128 : Shape := ⟨2, ![2, 128]⟩
abbrev S2 : Shape := ⟨1, ![2]⟩
abbrev S_ : Shape := ⟨0, ![]⟩
abbrev S1x128 : Shape := ⟨2, ![1, 128]⟩
abbrev S1x2 : Shape := ⟨2, ![1, 2]⟩
abbrev S2x256x1024 : Shape := ⟨3, ![2, 256, 1024]⟩
abbrev S128x128 : Shape := ⟨2, ![128, 128]⟩
abbrev S2x128x1024 : Shape := ⟨3, ![2, 128, 1024]⟩
abbrev S128x2 : Shape := ⟨2, ![128, 2]⟩
abbrev S1024x2 : Shape := ⟨2, ![1024, 2]⟩
abbrev S2x1024 : Shape := ⟨2, ![2, 1024]⟩
abbrev S128x1024 : Shape := ⟨2, ![128, 1024]⟩
abbrev S128x1 : Shape := ⟨2, ![128, 1]⟩
abbrev S1x1024 : Shape := ⟨2, ![1, 1024]⟩
abbrev S1x1 : Shape := ⟨2, ![1, 1]⟩
abbrev S1x128x1024 : Shape := ⟨3, ![1, 128, 1024]⟩
abbrev S256x1024x2 : Shape := ⟨3, ![256, 1024, 2]⟩

abbrev nBuf : Space → Nat
  | .hbm => 27
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S1024x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x128, .f32⟩
  | .hbm, ⟨7, _⟩ => ⟨S2, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S2x128, .f32⟩
  | .hbm, ⟨17, _⟩ => ⟨S2x128, .f32⟩
  | .hbm, ⟨18, _⟩ => ⟨S1x128, .f32⟩
  | .hbm, ⟨19, _⟩ => ⟨S2x128, .f32⟩
  | .hbm, ⟨20, _⟩ => ⟨S2x128, .f32⟩
  | .hbm, ⟨21, _⟩ => ⟨S_, .f32⟩
  | .hbm, ⟨22, _⟩ => ⟨S2, .f32⟩
  | .hbm, ⟨23, _⟩ => ⟨S2, .f32⟩
  | .hbm, ⟨24, _⟩ => ⟨S1x2, .f32⟩
  | .hbm, ⟨25, _⟩ => ⟨S2x256x1024, .f32⟩
  | .hbm, ⟨26, _⟩ => ⟨S256x1024x2, .f32⟩
  | .local _ .vmem, ⟨0, _⟩ => ⟨S128x128, .f32⟩
  | .local _ .vmem, ⟨1, _⟩ => ⟨S128x128, .f32⟩
  | .local _ .vmem, ⟨2, _⟩ => ⟨S1024x128, .f32⟩
  | .local _ .vmem, ⟨3, _⟩ => ⟨S2x128, .f32⟩
  | .local _ .vmem, ⟨4, _⟩ => ⟨S1x2, .f32⟩
  | .local _ .vmem, ⟨5, _⟩ => ⟨S2x128x1024, .f32⟩
  | .local _ .vmem, ⟨6, _⟩ => ⟨S2x128x1024, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S2x128_0_1 : S1x128.BroadcastsInDim S2x128 (![0, 1] : Fin 2 → Fin S2x128.rank)
  reducesTo_S2x128_S2_d1 : S2x128.ReducesTo [1] S2
  h_S_ : 0 < S_.numel
  shapeCasts_S2_S1x2 : S2.ShapeCasts S1x2
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S1024x2_p1_0_S2x1024 : S1024x2.Transposes [1, 0] S2x1024
  slices_S2x128_o0_0_S1x128 : S2x128.Slices ![0, 0] S1x128
  broadcasts_S1x128_S128x128 : S1x128.Broadcasts S128x128
  slices_S128x2_o0_0_S128x1 : S128x2.Slices ![0, 0] S128x1
  slices_S2x1024_o0_0_S1x1024 : S2x1024.Slices ![0, 0] S1x1024
  broadcasts_S128x1_S128x1024 : S128x1.Broadcasts S128x1024
  broadcasts_S1x1024_S128x1024 : S1x1024.Broadcasts S128x1024
  slices_S1x2_o0_0_S1x1 : S1x2.Slices ![0, 0] S1x1
  inpos_S1x1_p0_0 : ∀ a, (![0, 0] : Fin 2 → Nat) a < S1x1.size a
  inb_S2x128x1024_S1x128x1024_0_0_0 : ∀ a, (![0, 0, 0] : Fin 3 → Nat) a + S1x128x1024.size a ≤ S2x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  slices_S2x128_o1_0_S1x128 : S2x128.Slices ![1, 0] S1x128
  slices_S128x2_o0_1_S128x1 : S128x2.Slices ![0, 1] S128x1
  slices_S2x1024_o1_0_S1x1024 : S2x1024.Slices ![1, 0] S1x1024
  slices_S1x2_o0_1_S1x1 : S1x2.Slices ![0, 1] S1x1
  inb_S2x128x1024_S1x128x1024_1_0_0 : ∀ a, (![1, 0, 0] : Fin 3 → Nat) a + S1x128x1024.size a ≤ S2x128x1024.size a
  transposes_S2x256x1024_S256x1024x2_1_2_0 : S2x256x1024.Transposes [1, 2, 0] S256x1024x2
  dot_S128x128_S2x128_S128x2_1_1_0_0_n_n_wf : DotDims.WF S128x128 S2x128 S128x2 [1] [1] [0] [0] [] []
  dot_S1024x128_S2x128_S1024x2_1_1_0_0_n_n_wf : DotDims.WF S1024x128 S2x128 S1024x2 [1] [1] [0] [0] [] []
  dot_S128x128_S1024x128_S128x1024_1_1_0_0_n_n_wf : DotDims.WF S128x128 S1024x128 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S256x128.size a
  hwx0_0 : ∀ i : grid0.Coords, EltTy.bits .f32 = 32 ∨ (Rect.block (s := S256x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128x1024.size a ≤ S2x256x1024.size a
  hwx0_4 : ∀ i : grid0.Coords, EltTy.bits .f32 = 32 ∨ (Rect.block (s := S2x256x1024) S2x128x1024.size (cc0_transform_4 i) (hinb0_4 i)).WholeWords (EltTy.packing .f32)

variable [Facts₀]

def dot_S128x128_S2x128_S128x2_1_1_0_0_n_n : DotDims S128x128 S2x128 S128x2 where
  lhsContracting := [1]
  rhsContracting := [1]
  lhsNonContracting := [0]
  rhsNonContracting := [0]
  lhsBatch := []
  rhsBatch := []
  wf := dot_S128x128_S2x128_S128x2_1_1_0_0_n_n_wf
def dot_S1024x128_S2x128_S1024x2_1_1_0_0_n_n : DotDims S1024x128 S2x128 S1024x2 where
  lhsContracting := [1]
  rhsContracting := [1]
  lhsNonContracting := [0]
  rhsNonContracting := [0]
  lhsBatch := []
  rhsBatch := []
  wf := dot_S1024x128_S2x128_S1024x2_1_1_0_0_n_n_wf
def dot_S128x128_S1024x128_S128x1024_1_1_0_0_n_n : DotDims S128x128 S1024x128 S128x1024 where
  lhsContracting := [1]
  rhsContracting := [1]
  lhsNonContracting := [0]
  rhsNonContracting := [0]
  lhsBatch := []
  rhsBatch := []
  wf := dot_S128x128_S1024x128_S128x1024_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x128 : Shape := ⟨2, ![256, 128]⟩
abbrev S1024x128 : Shape := ⟨2, ![1024, 128]⟩
abbrev S128 : Shape := ⟨1, ![128]⟩
abbrev S2x128 : Shape := ⟨2, ![2, 128]⟩
abbrev S2 : Shape := ⟨1, ![2]⟩
abbrev S256x1x128 : Shape := ⟨3, ![256, 1, 128]⟩
abbrev S1x1024x128 : Shape := ⟨3, ![1, 1024, 128]⟩
abbrev S256x1024x128 : Shape := ⟨3, ![256, 1024, 128]⟩
abbrev S_ : Shape := ⟨0, ![]⟩
abbrev S1x1x128 : Shape := ⟨3, ![1, 1, 128]⟩
abbrev S256x1024x2 : Shape := ⟨3, ![256, 1024, 2]⟩
abbrev S1x1x2 : Shape := ⟨3, ![1, 1, 2]⟩

abbrev nBuf : Space → Nat
  | .hbm => 32
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S1024x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S2x128, .f32⟩
  | .hbm, ⟨7, _⟩ => ⟨S2, .f32⟩
  | .hbm, ⟨8, _⟩ => ⟨S256x1x128, .f32⟩
  | .hbm, ⟨9, _⟩ => ⟨S1x1024x128, .f32⟩
  | .hbm, ⟨10, _⟩ => ⟨S256x1024x128, .f32⟩
  | .hbm, ⟨11, _⟩ => ⟨S256x1024x128, .f32⟩
  | .hbm, ⟨12, _⟩ => ⟨S256x1024x128, .f32⟩
  | .hbm, ⟨13, _⟩ => ⟨S256x1024x128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x1x128, .f32⟩
  | .hbm, ⟨20, _⟩ => ⟨S256x1024x128, .f32⟩
  | .hbm, ⟨21, _⟩ => ⟨S256x1024x128, .f32⟩
  | .hbm, ⟨22, _⟩ => ⟨S1x1x128, .f32⟩
  | .hbm, ⟨23, _⟩ => ⟨S256x1024x128, .f32⟩
  | .hbm, ⟨24, _⟩ => ⟨S256x1024x128, .f32⟩
  | .hbm, ⟨25, _⟩ => ⟨S1x1x128, .f32⟩
  | .hbm, ⟨26, _⟩ => ⟨S256x1024x128, .f32⟩
  | .hbm, ⟨27, _⟩ => ⟨S256x1024x128, .f32⟩
  | .hbm, ⟨28, _⟩ => ⟨S256x1024x2, .f32⟩
  | .hbm, ⟨29, _⟩ => ⟨S1x1x2, .f32⟩
  | .hbm, ⟨30, _⟩ => ⟨S256x1024x2, .f32⟩
  | .hbm, ⟨31, _⟩ => ⟨S256x1024x2, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S256x128_S256x1x128_0_2 : S256x128.BroadcastsInDim S256x1x128 (![0, 2] : Fin 2 → Fin S256x1x128.rank)
  bcast_S1024x128_S1x1024x128_1_2 : S1024x128.BroadcastsInDim S1x1024x128 (![1, 2] : Fin 2 → Fin S1x1024x128.rank)
  bcast_S256x1x128_S256x1024x128_0_1_2 : S256x1x128.BroadcastsInDim S256x1024x128 (![0, 1, 2] : Fin 3 → Fin S256x1024x128.rank)
  bcast_S1x1024x128_S256x1024x128_0_1_2 : S1x1024x128.BroadcastsInDim S256x1024x128 (![0, 1, 2] : Fin 3 → Fin S256x1024x128.rank)
  bcast_S_S128 : S_.BroadcastsInDim S128 (![] : Fin 0 → Fin S128.rank)
  bcast_S128_S1x1x128_2 : S128.BroadcastsInDim S1x1x128 (![2] : Fin 1 → Fin S1x1x128.rank)
  bcast_S1x1x128_S256x1024x128_0_1_2 : S1x1x128.BroadcastsInDim S256x1024x128 (![0, 1, 2] : Fin 3 → Fin S256x1024x128.rank)
  bcast_S2_S1x1x2_2 : S2.BroadcastsInDim S1x1x2 (![2] : Fin 1 → Fin S1x1x2.rank)
  bcast_S1x1x2_S256x1024x2_0_1_2 : S1x1x2.BroadcastsInDim S256x1024x2 (![0, 1, 2] : Fin 3 → Fin S256x1024x2.rank)
  dot_S256x1024x128_S2x128_S256x1024x2_2_1_01_0_n_n_wf : DotDims.WF S256x1024x128 S2x128 S256x1024x2 [2] [1] [0, 1] [0] [] []

variable [Facts₀]

def dot_S256x1024x128_S2x128_S256x1024x2_2_1_01_0_n_n : DotDims S256x1024x128 S2x128 S256x1024x2 where
  lhsContracting := [2]
  rhsContracting := [1]
  lhsNonContracting := [0, 1]
  rhsNonContracting := [0]
  lhsBatch := []
  rhsBatch := []
  wf := dot_S256x1024x128_S2x128_S256x1024x2_2_1_01_0_n_n_wf

class Facts : Prop extends Facts₀ where

variable [Facts]
-- ==== Proof.Algebra.lean ====
/-
  The arithmetic that joins the two programs, on the extended reals.

  With every input a real number and each variance nonnegative, the per-feature scale
  s_f = w_f · (var_f + ε)^(-1/2) is a real number, and for one probe row p, one gallery row g and one class row W:

    Σ_f (((p_f − g_f)² − mean_f) · s_f + bias_f) · W_f + b
      = Σ_f p_f² (s_f W_f) + Σ_f g_f² (s_f W_f) − 2 Σ_f (p_f (s_f W_f)) g_f + (b + (0 + Σ_f (bias_f − mean_f s_f) W_f))

  — the square expanded and the sum split, which is valid because every term is finite.
-/
import Idealize.ShloMosaic.PureOps.Ideal
import Mathlib

noncomputable section

namespace Cert.Score

open Idealize.ShloMosaic

/-- A finite sum of real numbers, each read as an extended real, is the real sum read as an extended real. -/
theorem sum_coe {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The pattern of 2.0 denotes the real number 2. -/
theorem ofBits_two : Ideal.ofBits .f32 0x40000000#32 = ((2 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The batch-norm epsilon both programs carry (the f32 nearest 1e-5) denotes a positive real number. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The reciprocal square root of a positive real is a real number. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The law: the classifier applied to the normalised squared difference, against the expanded form with the
    normalisation folded into the class weights and the bias. All quantities real. -/
theorem score_law {ι : Type} [Fintype ι] (p g s bias mean W : ι → ℝ) (b : ℝ) :
    (((∑ k, ((p k : EReal) * (p k : EReal)) * ((s k : EReal) * (W k : EReal)))
        + (∑ k, ((g k : EReal) * (g k : EReal)) * ((s k : EReal) * (W k : EReal))))
        - ((2 : ℝ) : EReal) * (∑ k, ((p k : EReal) * ((s k : EReal) * (W k : EReal))) * (g k : EReal)))
      + ((b : EReal) + (0 + ∑ k, ((bias k : EReal) - (mean k : EReal) * (s k : EReal)) * (W k : EReal)))
    = (∑ k, (((((p k : EReal) - (g k : EReal)) * ((p k : EReal) - (g k : EReal))) - (mean k : EReal)) * (s k : EReal)
          + (bias k : EReal)) * (W k : EReal)) + (b : EReal) := by
  simp only [← EReal.coe_mul, ← EReal.coe_sub, ← EReal.coe_add, sum_coe, zero_add]
  rw [EReal.coe_eq_coe_iff]
  have hk : ∀ k, (((p k - g k) * (p k - g k) - mean k) * s k + bias k) * W k
      = p k * p k * (s k * W k) + g k * g k * (s k * W k) - 2 * (p k * (s k * W k) * g k) + (bias k - mean k * s k) * W k :=
    fun k => by ring
  simp only [hk, Finset.sum_add_distrib, Finset.sum_sub_distrib, ← Finset.mul_sum]
  ring

end Cert.Score

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.Body.lean ====
/-
  What the kernel body computes, entry by entry, over the extended reals.

  The body holds one block p of 128 probe rows, all 1024 gallery rows g, the folded class weights V (2 × 128) and the
  folded bias b' (1 × 2). For class c it stores, at (c, r, j),

      (Σ_k p(r,k)² V(c,k)  +  Σ_k g(j,k)² V(c,k))  −  2 · Σ_k (p(r,k) V(c,k)) g(j,k)  +  b'(0,c),

  the three sums being the three matrix products of the body (each contracting the feature axis of both operands),
  the row term broadcast along the columns and the column term along the rows. The two stores (c = 0 and c = 1) tile
  the staging buffer, so the buffer after the body is that one function of (c, r, j).
-/
import proofs.«147848_j69956427317336_2_alg».proof.Proof.Gen.KernelIdeal.Frame
import proofs.«147848_j69956427317336_2_alg».proof.Proof.LibColumn
import proofs.«147848_j69956427317336_2_alg».proof.Proof.LibDotNT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The body's value at class `c`, block row `r`, gallery row `j`, from the four blocks it loads. -/
def blockScore (x0 : S128x128.Idx → EReal) (x1 : S1024x128.Idx → EReal) (x2 : S2x128.Idx → EReal) (x3 : S1x2.Idx → EReal)
    (c : Fin 2) (r : Fin 128) (j : Fin 1024) : EReal :=
  (((∑ k : Fin 128, (x0 (ix2 r k) * x0 (ix2 r k)) * x2 (ix2 c k))
      + (∑ k : Fin 128, (x1 (ix2 j k) * x1 (ix2 j k)) * x2 (ix2 c k)))
    - Ideal.ofBits .f32 0x40000000#32 * (∑ k : Fin 128, (x0 (ix2 r k) * x2 (ix2 c k)) * x1 (ix2 j k)))
  + x3 (ix2 (0 : Fin 1) c)

/-- The class weights pass through a same-shape cast unchanged. -/
theorem weights_eq (x2 : FVec Ideal S2x128 .f32) : k0_pay2 (F := Ideal) x2 = x2 := by
  unfold k0_pay2; exact shapeCast_self _ _

/-- The folded bias likewise. -/
theorem bias_eq (x3 : FVec Ideal S1x2 .f32) : k0_pay3 (F := Ideal) x3 = x3 := by
  unfold k0_pay3; exact shapeCast_self _ _

/-- The row term: squared probe rows against the class weights. -/
theorem rowTerm_apply (x0 : FVec Ideal S128x128 .f32) (x2 : FVec Ideal S2x128 .f32) (r : Fin 128) (c : Fin 2) :
    k0_pay4 (F := Ideal) x0 x2 (ix2 r c) = ∑ k : Fin 128, (x0 (ix2 r k) * x0 (ix2 r k)) * x2 (ix2 c k) := by
  unfold k0_pay4
  rw [weights_eq]
  exact matmul_nt_zero_apply dot_S128x128_S2x128_S128x2_1_1_0_0_n_n rfl rfl rfl rfl rfl rfl rfl rfl _ (mulf x0 x0) x2 r c

/-- The column term: squared gallery rows against the class weights, transposed to class-major. -/
theorem colTerm_apply (x1 : FVec Ideal S1024x128 .f32) (x2 : FVec Ideal S2x128 .f32) (c : Fin 2) (j : Fin 1024) :
    k0_pay5 (F := Ideal) x1 x2 (ix2 c j) = ∑ k : Fin 128, (x1 (ix2 j k) * x1 (ix2 j k)) * x2 (ix2 c k) := by
  unfold k0_pay5
  rw [weights_eq]
  refine (transpose_ix2_apply _ transposes_S1024x2_p1_0_S2x1024 c j).trans ?_
  exact matmul_nt_zero_apply dot_S1024x128_S2x128_S1024x2_1_1_0_0_n_n rfl rfl rfl rfl rfl rfl rfl rfl _ (mulf x1 x1) x2 j c

/-- The cross term of class `c` (the weights' row `c` cut out at offset `o`, spread over the probe rows, multiplied in,
    then contracted against the gallery rows). -/
theorem crossTerm_apply (x0 : FVec Ideal S128x128 .f32) (x1 : FVec Ideal S1024x128 .f32) (x2 : FVec Ideal S2x128 .f32)
    (o : ℕ) (c : Fin 2) (hc : c.val = o + (0 : Fin 1).val) (h : S2x128.Slices ![o, 0] S1x128) (r : Fin 128) (j : Fin 1024) :
    matmul dot_S128x128_S1024x128_S128x1024_1_1_0_0_n_n (some .fp32)
        (mulf x0 (broadcastTo S128x128 (extractStridedSlice S1x128 ![o, 0] x2 h) broadcasts_S1x128_S128x128)) x1
        (constant (F := Ideal) S128x1024 .f32 0x00000000#32) (ix2 r j)
      = ∑ k : Fin 128, (x0 (ix2 r k) * x2 (ix2 c k)) * x1 (ix2 j k) := by
  refine (matmul_nt_zero_apply dot_S128x128_S1024x128_S128x1024_1_1_0_0_n_n rfl rfl rfl rfl rfl rfl rfl rfl _ _ x1 r j).trans ?_
  refine Finset.sum_congr rfl fun k _ => ?_
  show (x0 (ix2 r k) * broadcastTo S128x128 (extractStridedSlice S1x128 ![o, 0] x2 h) broadcasts_S1x128_S128x128 (ix2 r k)) * x1 (ix2 j k) = _
  rw [broadcastTo_1b_ab_apply, slice2_axis0_apply o x2 h 0 k c hc]

/-- The folded bias of class `c`, cut out of its row at offset `o` and read as a scalar. -/
theorem biasTerm_eq (x3 : FVec Ideal S1x2 .f32) (o : ℕ) (c : Fin 2) (hc : c.val = o + (0 : Fin 1).val)
    (h : S1x2.Slices ![0, o] S1x1) :
    extractAt ![0, 0] (extractStridedSlice S1x1 ![0, o] x3 h) inpos_S1x1_p0_0 = x3 (ix2 (0 : Fin 1) c) := by
  unfold extractAt
  have e : (fun a => (⟨(![0, 0] : Fin 2 → ℕ) a, inpos_S1x1_p0_0 a⟩ : Fin (S1x1.size a))) = ix2 (0 : Fin 1) (0 : Fin 1) :=
    funext fun a => by match a with | ⟨0, _⟩ => rfl | ⟨1, _⟩ => rfl
  refine (congrArg (extractStridedSlice S1x1 ![0, o] x3 h) e).trans ?_
  exact slice2_axis1_apply o x3 h 0 0 c hc

/-- The store of class 0, entry by entry. -/
theorem store0_apply (x0 : FVec Ideal S128x128 .f32) (x1 : FVec Ideal S1024x128 .f32) (x2 : FVec Ideal S2x128 .f32)
    (x3 : FVec Ideal S1x2 .f32) (u : Fin 1) (r : Fin 128) (j : Fin 1024) :
    k0_pay6 (F := Ideal) x0 x1 x2 x3 (ix3 u r j) = blockScore x0 x1 x2 x3 0 r j := by
  unfold k0_pay6
  rw [weights_eq, bias_eq]
  refine (shapeCast_ab_1ab_apply _ shapeCasts_S128x1024_S1x128x1024 u r j).trans ?_
  simp only [addf_apply, subf_apply, mulf_apply, broadcast_apply]
  rw [broadcastTo_a1_ab_apply, slice2_axis1_apply 0 _ slices_S128x2_o0_0_S128x1 r 0 (0 : Fin 2) rfl, rowTerm_apply,
    broadcastTo_1b_ab_apply, slice2_axis0_apply 0 _ slices_S2x1024_o0_0_S1x1024 0 j (0 : Fin 2) rfl, colTerm_apply,
    crossTerm_apply x0 x1 x2 0 0 rfl, biasTerm_eq x3 0 0 rfl]
  rfl

/-- The store of class 1, entry by entry. -/
theorem store1_apply (x0 : FVec Ideal S128x128 .f32) (x1 : FVec Ideal S1024x128 .f32) (x2 : FVec Ideal S2x128 .f32)
    (x3 : FVec Ideal S1x2 .f32) (u : Fin 1) (r : Fin 128) (j : Fin 1024) :
    k0_pay1 (F := Ideal) (k0_pay3 x3) (k0_pay7 x0 x1 x2) (k0_pay8 x0 x1 x2) (ix3 u r j) = blockScore x0 x1 x2 x3 1 r j := by
  unfold k0_pay1 k0_pay7 k0_pay8
  rw [weights_eq, bias_eq]
  refine (shapeCast_ab_1ab_apply _ shapeCasts_S128x1024_S1x128x1024 u r j).trans ?_
  simp only [addf_apply, subf_apply, mulf_apply, broadcast_apply]
  rw [broadcastTo_a1_ab_apply, slice2_axis1_apply 1 _ slices_S128x2_o0_1_S128x1 r 0 (1 : Fin 2) rfl, rowTerm_apply,
    broadcastTo_1b_ab_apply, slice2_axis0_apply 1 _ slices_S2x1024_o1_0_S1x1024 0 j (1 : Fin 2) rfl, colTerm_apply,
    crossTerm_apply x0 x1 x2 1 1 rfl, biasTerm_eq x3 1 1 rfl]
  rfl

theorem hz2 : (![0, 0] : Fin 2 → Nat) = fun _ => 0 := funext fun a => by fin_cases a <;> rfl

/-- THE STAGING BUFFER AFTER THE BODY, entry by entry: its two stores tile it, the first plane holding class 0 and the
    second class 1, so at `(c, r, j)` it holds the body's value of class `c`. -/
theorem out_apply (x0 : FVec Ideal S128x128 .f32) (x1 : FVec Ideal S1024x128 .f32) (x2 : FVec Ideal S2x128 .f32)
    (x3 : FVec Ideal S1x2 .f32) (y : S2x128x1024.Idx) :
    out0_4 (F := Ideal) x0 x1 x2 x3 y = blockScore x0 x1 x2 x3 (y 0) (y 1) (y 2) := by
  unfold out0_4
  simp only [View.ld_unit_zero (S := S128x128) hz2, View.ld_unit_zero (S := S1024x128) hz2,
    View.ld_unit_zero (S := S2x128) hz2, View.ld_unit_zero (S := S1x2) hz2]
  refine View.canon_apply_of_pieces (Val := Elt Ideal) (S := S2x128x1024) (e := .f32)
    (fun y : S2x128x1024.Idx => blockScore x0 x1 x2 x3 (y 0) (y 1) (y 2)) _ ?_ y
    (cover0_4 _ _ y)
  intro p hp
  simp only [List.mem_cons, List.mem_nil_iff, or_false] at hp
  rcases hp with rfl | rfl
  · intro x
    obtain ⟨u, r, j, rfl⟩ : ∃ (u : Fin 1) (r : Fin 128) (j : Fin 1024), x = ix3 u r j := ⟨x 0, x 1, x 2, eq_ix3 x⟩
    have h0 : (r0_5.emb (ix3 u r j)) 0 = (1 : Fin 2) := Fin.ext (by show 1 + 1 * u.val = 1; omega)
    have h1 : (r0_5.emb (ix3 u r j)) 1 = r := Fin.ext (by show 0 + 1 * r.val = r.val; omega)
    have h2 : (r0_5.emb (ix3 u r j)) 2 = j := Fin.ext (by show 0 + 1 * j.val = j.val; omega)
    show k0_pay1 (F := Ideal) (k0_pay3 x3) (k0_pay7 x0 x1 x2) (k0_pay8 x0 x1 x2) (ix3 u r j)
      = blockScore x0 x1 x2 x3 ((r0_5.emb (ix3 u r j)) 0) ((r0_5.emb (ix3 u r j)) 1) ((r0_5.emb (ix3 u r j)) 2)
    rw [h0, h1, h2, store1_apply]
  · intro x
    obtain ⟨u, r, j, rfl⟩ : ∃ (u : Fin 1) (r : Fin 128) (j : Fin 1024), x = ix3 u r j := ⟨x 0, x 1, x 2, eq_ix3 x⟩
    have h0 : (r0_4.emb (ix3 u r j)) 0 = (0 : Fin 2) := Fin.ext (by show 0 + 1 * u.val = 0; omega)
    have h1 : (r0_4.emb (ix3 u r j)) 1 = r := Fin.ext (by show 0 + 1 * r.val = r.val; omega)
    have h2 : (r0_4.emb (ix3 u r j)) 2 = j := Fin.ext (by show 0 + 1 * j.val = j.val; omega)
    show k0_pay6 (F := Ideal) x0 x1 x2 x3 (ix3 u r j)
      = blockScore x0 x1 x2 x3 ((r0_4.emb (ix3 u r j)) 0) ((r0_4.emb (ix3 u r j)) 1) ((r0_4.emb (ix3 u r j)) 2)
    rw [h0, h1, h2, store0_apply]

end Cert.KernelIdeal.Body

end
-- ==== Proof.Blocks.lean ====
/-
  From blocks to the array. Grid point t stages probe rows 128·t … 128·t+127 and all of the gallery, the folded weights
  and the folded bias, and writes back the block (all classes, probe rows 128·t …, all gallery rows) of the class-major
  result. What it writes is the restriction to that block of ONE function of the four staged arrays,

      score(c, p, g) = (Σ_k P(p,k)² V(c,k) + Σ_k G(g,k)² V(c,k)) − 2 Σ_k (P(p,k) V(c,k)) G(g,k) + b'(0,c),

  and the two blocks cover the array, so the array after the region is that function.
-/
import proofs.«147848_j69956427317336_2_alg».proof.Proof.Body
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The class-major result as one function of the arrays the four input windows stage. -/
def score (P : S256x128.Idx → EReal) (G : S1024x128.Idx → EReal) (Vw : S2x128.Idx → EReal) (bp : S1x2.Idx → EReal)
    (c : Fin 2) (p : Fin 256) (g : Fin 1024) : EReal :=
  (((∑ k : Fin 128, (P (ix2 p k) * P (ix2 p k)) * Vw (ix2 c k))
      + (∑ k : Fin 128, (G (ix2 g k) * G (ix2 g k)) * Vw (ix2 c k)))
    - Ideal.ofBits .f32 0x40000000#32 * (∑ k : Fin 128, (P (ix2 p k) * Vw (ix2 c k)) * G (ix2 g k)))
  + bp (ix2 (0 : Fin 1) c)

/-- The same as an array. -/
def scoreArr (P : S256x128.Idx → EReal) (G : S1024x128.Idx → EReal) (Vw : S2x128.Idx → EReal) (bp : S1x2.Idx → EReal) :
    S2x256x1024.Idx → EReal := fun i => score P G Vw bp (i 0) (i 1) (i 2)

/-- A block's value is the array function's, wherever the block's rows are the array's rows. -/
theorem block_is_restriction (P : S256x128.Idx → EReal) (G : S1024x128.Idx → EReal) (Vw : S2x128.Idx → EReal)
    (bp : S1x2.Idx → EReal) (x0 : FVec Ideal S128x128 .f32) (x1 : FVec Ideal S1024x128 .f32) (x2 : FVec Ideal S2x128 .f32)
    (x3 : FVec Ideal S1x2 .f32) (c : Fin 2) (r : Fin 128) (j : Fin 1024) (c' : Fin 2) (p : Fin 256) (g : Fin 1024)
    (h0 : ∀ k, x0 (ix2 r k) = P (ix2 p k)) (h1 : ∀ k, x1 (ix2 j k) = G (ix2 g k))
    (h2 : ∀ k, x2 (ix2 c k) = Vw (ix2 c' k)) (h3 : x3 (ix2 (0 : Fin 1) c) = bp (ix2 (0 : Fin 1) c')) :
    Body.blockScore x0 x1 x2 x3 c r j = score P G Vw bp c' p g := by
  unfold Body.blockScore score
  simp only [h0, h1, h2, h3]

variable (m : (ℓ : Loc nD τ sig) → Buf (Elt Ideal) ℓ) (ρ : Dev nD → PrngReg)

/-- The printed index maps over the grid: the probe window and the result window move together along the probe rows;
    every other coordinate of every window stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-- The class-major result as the function of the arrays the region finds. -/
abbrev result (c : Dev nD) : S2x256x1024.Idx → EReal :=
  scoreArr (V m c main_arg0) (V m c main_arg1) (V m c main_v8) (V m c main_v14)

/-- WHAT POINT `t` WRITES BACK is block `t` of that function. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  obtain ⟨e00, e01, e10, e11, e20, e21, e30, e31, e40, e41, e42⟩ := idx_facts t
  funext y
  show out0_4 (F := Ideal) (iblk m c 0 t) (iblk m c 1 t) (iblk m c 2 t) (iblk m c 3 t) y
    = score (V m c main_arg0) (V m c main_arg1) (V m c main_v8) (V m c main_v14)
        ((((cfg0.win 4).blk t).view.emb y) 0) ((((cfg0.win 4).blk t).view.emb y) 1) ((((cfg0.win 4).blk t).view.emb y) 2)
  refine (Body.out_apply (iblk m c 0 t) (iblk m c 1 t) (iblk m c 2 t) (iblk m c 3 t) y).trans ?_
  refine block_is_restriction (V m c main_arg0) (V m c main_arg1) (V m c main_v8) (V m c main_v14)
    (iblk m c 0 t) (iblk m c 1 t) (iblk m c 2 t) (iblk m c 3 t) (y 0) (y 1) (y 2) _ _ _ ?_ ?_ ?_ ?_
  · intro k
    show V m c main_arg0 (((cfg0.win 0).blk t).view.emb (ix2 (y 1) k)) = V m c main_arg0 (ix2 ((((cfg0.win 4).blk t).view.emb y) 1) k)
    refine congrArg (V m c main_arg0) (funext fun a => Fin.ext ?_)
    match a with
    | ⟨0, _⟩ => show win0_0.index t (0 : Fin 2) * 128 + 1 * (y 1).val = win0_4.index t (1 : Fin 3) * 128 + 1 * (y 1).val; omega
    | ⟨1, _⟩ => show win0_0.index t (1 : Fin 2) * 128 + 1 * k.val = k.val; omega
  · intro k
    show V m c main_arg1 (((cfg0.win 1).blk t).view.emb (ix2 (y 2) k)) = V m c main_arg1 (ix2 ((((cfg0.win 4).blk t).view.emb y) 2) k)
    refine congrArg (V m c main_arg1) (funext fun a => Fin.ext ?_)
    match a with
    | ⟨0, _⟩ => show win0_1.index t (0 : Fin 2) * 1024 + 1 * (y 2).val = win0_4.index t (2 : Fin 3) * 1024 + 1 * (y 2).val; omega
    | ⟨1, _⟩ => show win0_1.index t (1 : Fin 2) * 128 + 1 * k.val = k.val; omega
  · intro k
    show V m c main_v8 (((cfg0.win 2).blk t).view.emb (ix2 (y 0) k)) = V m c main_v8 (ix2 ((((cfg0.win 4).blk t).view.emb y) 0) k)
    refine congrArg (V m c main_v8) (funext fun a => Fin.ext ?_)
    match a with
    | ⟨0, _⟩ => show win0_2.index t (0 : Fin 2) * 2 + 1 * (y 0).val = win0_4.index t (0 : Fin 3) * 2 + 1 * (y 0).val; omega
    | ⟨1, _⟩ => show win0_2.index t (1 : Fin 2) * 128 + 1 * k.val = k.val; omega
  · show V m c main_v14 (((cfg0.win 3).blk t).view.emb (ix2 (0 : Fin 1) (y 0))) = V m c main_v14 (ix2 (0 : Fin 1) ((((cfg0.win 4).blk t).view.emb y) 0))
    refine congrArg (V m c main_v14) (funext fun a => Fin.ext ?_)
    match a with
    | ⟨0, _⟩ => show win0_3.index t (0 : Fin 2) * 1 + 1 * 0 = 0; omega
    | ⟨1, _⟩ => show win0_3.index t (1 : Fin 2) * 2 + 1 * (y 0).val = win0_4.index t (0 : Fin 3) * 2 + 1 * (y 0).val; omega

/-- An index of the array is in point `t`'s block iff each coordinate is in the block's range on its axis. -/
theorem mem_blk (t : Fin cfg0.N) (i : S2x256x1024.Idx) :
    i ∈ ((cfg0.win 4).blk t).view.set ↔ ∀ a : Fin 3, win0_4.index t a * S2x128x1024.size a ≤ (i a).val
      ∧ (i a).val < win0_4.index t a * S2x128x1024.size a + S2x128x1024.size a := by
  show i ∈ ((View.whole main_v15).slice (win0_4.rect t)).set ↔ _
  rw [View.set_slice_whole, Rect.mem_set_unit]
  exact Iff.rfl

/-- THE ARRAY after the region: the two blocks (probe rows 0–127 and 128–255) cover it. -/
theorem final (c : Dev nD) : (dats m 0 c).arrAt 4 cfg0.N = result m c :=
  (dats m 0 c).arrAt_eq_of_cover 4 (result m c) (fun t _ => flushed_eq m c t) fun i => by
    have hN : cfg0.N = 2 := N_0
    have hi0 : (i 0).val < 2 := (i 0).isLt
    have hi1 : (i 1).val < 256 := (i 1).isLt
    have hi2 : (i 2).val < 1024 := (i 2).isLt
    refine ⟨⟨(i 1).val / 128, by omega⟩, flush0_4 _, ?_⟩
    obtain ⟨e00, e01, e10, e11, e20, e21, e30, e31, e40, e41, e42⟩ := idx_facts ⟨(i 1).val / 128, by omega⟩
    rw [mem_blk]
    intro a
    match a with
    | ⟨0, _⟩ => show win0_4.index _ (0 : Fin 3) * 2 ≤ (i 0).val ∧ (i 0).val < win0_4.index _ (0 : Fin 3) * 2 + 2; omega
    | ⟨1, _⟩ => show win0_4.index _ (1 : Fin 3) * 128 ≤ (i 1).val ∧ (i 1).val < win0_4.index _ (1 : Fin 3) * 128 + 128; simp only at e41; omega
    | ⟨2, _⟩ => show win0_4.index _ (2 : Fin 3) * 1024 ≤ (i 2).val ∧ (i 2).val < win0_4.index _ (2 : Fin 3) * 1024 + 1024; omega

end Cert.KernelIdeal.Whole

end
-- ==== Proof.Folded.lean ====
/-
  What the host computes before the kernel is launched: the batch-norm scale folded into the class weights,

      V(c,k) = (w_k · rsqrt(var_k + ε)) · W(c,k),

  and the batch-norm shift folded into the bias,

      b'(0,c) = b_c + (0 + Σ_k (bias_k − mean_k · (w_k · rsqrt(var_k + ε))) · W(c,k)),

  each read at an index of the array the kernel's window stages.
-/
import proofs.«147848_j69956427317336_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Folded

open Cert.KernelIdeal Cert.KernelIdeal.Gen Idealize.ShloMosaic Idealize.ShloMosaic.TcCoe Idealize.SL.Sem
open Idealize.ShloMosaic.StableHlo Idealize.ShloMosaic.ValueIdx

/-- The per-feature scale `w · rsqrt(var + ε)`, as the host computes it. -/
def scale (w var : S128.Idx → EReal) (k : Fin 128) : EReal :=
  w (ix1 k) * Ideal.rsqrt (var (ix1 k) + Ideal.ofBits .f32 0x3727C5AC#32)

/-- A scalar spread over a vector reads the scalar. -/
theorem spread_scalar (x : FVec Ideal S_ .f32) (k : Fin 128) :
    broadcastInDim S128 ![] bcast_S_S128 x (ix1 k) = x ix0 :=
  broadcastInDim_apply _ bcast_S_S128 x (ix1 k) ix0 (fun a => a.elim0)

/-- A vector viewed as one row reads the vector. -/
theorem as_row (x : FVec Ideal S128 .f32) (u : Fin 1) (k : Fin 128) :
    broadcastInDim S1x128 ![1] bcast_S128_S1x128_1 x (ix2 u k) = x (ix1 k) :=
  broadcastInDim_apply _ bcast_S128_S1x128_1 x (ix2 u k) (ix1 k) (fun a => match a with
    | ⟨0, _⟩ => by show k.val = if (128 : Nat) = 1 then 0 else k.val; rw [if_neg (by decide)])

/-- One row repeated for both classes reads the row. -/
theorem both_rows (x : FVec Ideal S1x128 .f32) (c : Fin 2) (k : Fin 128) :
    broadcastInDim S2x128 ![0, 1] bcast_S1x128_S2x128_0_1 x (ix2 c k) = x (ix2 (0 : Fin 1) k) :=
  broadcastInDim_apply _ bcast_S1x128_S2x128_0_1 x (ix2 c k) (ix2 (0 : Fin 1) k) (fun a => match a with
    | ⟨0, _⟩ => by show 0 = if (1 : Nat) = 1 then 0 else c.val; rw [if_pos rfl]
    | ⟨1, _⟩ => by show k.val = if (128 : Nat) = 1 then 0 else k.val; rw [if_neg (by decide)])

/-- The host's scale vector at a feature. -/
theorem scale_apply (w var : FVec Ideal S128 .f32) (k : Fin 128) :
    mulf w (Host.rsqrt (addf var (broadcastInDim S128 ![] bcast_S_S128 (constant (F := Ideal) S_ .f32 0x3727C5AC#32)))) (ix1 k)
      = scale w var k := by
  show w (ix1 k) * Ideal.rsqrt (var (ix1 k) + broadcastInDim S128 ![] bcast_S_S128 (constant (F := Ideal) S_ .f32 0x3727C5AC#32) (ix1 k)) = _
  rw [spread_scalar]
  rfl

/-- The folded class weight: scale times weight. -/
def weightFold (w var : S128.Idx → EReal) (W : S2x128.Idx → EReal) (cl : Fin 2) (k : Fin 128) : EReal :=
  scale w var k * W (ix2 cl k)

/-- The folded bias: the bias plus the shift's contribution through the class weights (the host's sum starts at its
    initial value, the zero pattern). -/
def biasFold (b : S2.Idx → EReal) (bias mean w var : S128.Idx → EReal) (W : S2x128.Idx → EReal) (cl : Fin 2) : EReal :=
  b (ix1 cl) + (Ideal.ofBits .f32 0x00000000#32
    + ∑ k : Fin 128, (bias (ix1 k) - mean (ix1 k) * scale w var k) * W (ix2 cl k))

variable (m : (ℓ : Loc nD τ sig) → Buf (Elt Ideal) ℓ)

/-- The folded class weights the kernel's third window stages. -/
theorem weights_read (c : Dev nD) (cl : Fin 2) (k : Fin 128) :
    (V m c main_v8 : S2x128.Idx → EReal) (ix2 cl k)
      = weightFold (m ((c : Thread nD τ).loc main_arg2)) (m ((c : Thread nD τ).loc main_arg5))
          (m ((c : Thread nD τ).loc main_arg6)) cl k := by
  unfold weightFold
  have e : (V m c main_v8 : S2x128.Idx → EReal)
      = mulf (broadcastInDim S2x128 ![0, 1] bcast_S1x128_S2x128_0_1 (broadcastInDim S1x128 ![1] bcast_S128_S1x128_1
          (mulf (m ((c : Thread nD τ).loc main_arg2)) (Host.rsqrt (addf (m ((c : Thread nD τ).loc main_arg5))
            (broadcastInDim S128 ![] bcast_S_S128 (constant (F := Ideal) S_ .f32 0x3727C5AC#32)))))))
          (m ((c : Thread nD τ).loc main_arg6)) := by
    show StableHlo.after hostOps0 (fun b => m (c, b)) (Proc.devRef .tc main_v8) = _
    after_results
  rw [e, mulf_apply, both_rows, as_row, scale_apply]

/-- A row sum of a two-row matrix, as the host's reduce computes it over the extended reals: the initial value plus
    the sum along the row. -/
theorem rowSum_apply (x : FVec Ideal S2x128 .f32) (init : FVec Ideal S_ .f32) (cl : Fin 2) :
    Host.reduceAdd x init reducesTo_S2x128_S2_d1 h_S_ (ix1 cl) = init ix0 + ∑ k : Fin 128, x (ix2 cl k) := by
  have hR : S2x128.Reduces [1] S2 := by decide
  show Ideal.hostReduceAdd reducesTo_S2x128_S2_d1 x (init (Shape.Idx.first h_S_)) (ix1 cl) = _
  rw [Ideal.hostReduceAdd_single reducesTo_S2x128_S2_d1 hR, eq_ix0 (Shape.Idx.first h_S_)]
  refine congrArg (init ix0 + ·) (Finset.sum_congr rfl fun k _ => congrArg x ?_)
  funext a
  apply Fin.ext
  match a with
  | ⟨0, _⟩ => rfl
  | ⟨1, _⟩ => rfl

/-- The folded bias the kernel's fourth window stages. -/
theorem bias_read (c : Dev nD) (cl : Fin 2) :
    (V m c main_v14 : S1x2.Idx → EReal) (ix2 (0 : Fin 1) cl)
      = biasFold (m ((c : Thread nD τ).loc main_arg7)) (m ((c : Thread nD τ).loc main_arg3))
          (m ((c : Thread nD τ).loc main_arg4)) (m ((c : Thread nD τ).loc main_arg2))
          (m ((c : Thread nD τ).loc main_arg5)) (m ((c : Thread nD τ).loc main_arg6)) cl := by
  unfold biasFold
  have e : (V m c main_v14 : S1x2.Idx → EReal)
      = shapeCast S1x2 (addf (m ((c : Thread nD τ).loc main_arg7))
          (Host.reduceAdd (mulf (broadcastInDim S2x128 ![0, 1] bcast_S1x128_S2x128_0_1 (broadcastInDim S1x128 ![1] bcast_S128_S1x128_1
              (subf (m ((c : Thread nD τ).loc main_arg3)) (mulf (m ((c : Thread nD τ).loc main_arg4))
                (mulf (m ((c : Thread nD τ).loc main_arg2)) (Host.rsqrt (addf (m ((c : Thread nD τ).loc main_arg5))
                  (broadcastInDim S128 ![] bcast_S_S128 (constant (F := Ideal) S_ .f32 0x3727C5AC#32)))))))))
              (m ((c : Thread nD τ).loc main_arg6)))
            (constant (F := Ideal) S_ .f32 0x00000000#32) reducesTo_S2x128_S2_d1 h_S_)) shapeCasts_S2_S1x2 := by
    show StableHlo.after hostOps0 (fun b => m (c, b)) (Proc.devRef .tc main_v14) = _
    after_results
    rfl
  rw [e, shapeCast_a_1a_apply, addf_apply, rowSum_apply]
  refine congrArg (fun z : EReal => _ + (Ideal.ofBits .f32 0x00000000#32 + z)) (Finset.sum_congr rfl fun k _ => ?_)
  rw [mulf_apply, both_rows, as_row, subf_apply, mulf_apply, scale_apply]

end Cert.KernelIdeal.Folded

end
-- ==== Proof.Run.lean ====
/-
  The kernel program's run, read: after the region the class-major array holds the score function of the staged arrays
  (the blocks cover it), the host's final transpose presents it probe-major, and the staged weights and bias are the
  folded ones. So the result at (p, g, c) is

      (Σ_k P(p,k)² V(c,k) + Σ_k G(g,k)² V(c,k)) − 2 Σ_k (P(p,k) V(c,k)) G(g,k) + b'(c)

  with V and b' the batch-norm-folded class weights and bias of the arguments.
-/
import proofs.«147848_j69956427317336_2_alg».proof.Proof.Blocks
import proofs.«147848_j69956427317336_2_alg».proof.Proof.Folded
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- The kernel program's result at `(p, g, c)` from the argument arrays. -/
def kernelScore (px : S256x128.Idx → EReal) (gx : S1024x128.Idx → EReal) (w bias mean var : S128.Idx → EReal)
    (W : S2x128.Idx → EReal) (b : S2.Idx → EReal) (p : Fin 256) (g : Fin 1024) (c : Fin 2) : EReal :=
  score px gx (fun i => Folded.weightFold w var W (i 0) (i 1)) (fun i => Folded.biasFold b bias mean w var W (i 1)) c p g

/-- The result array as a function of the argument arrays. -/
def kernelResult (px : S256x128.Idx → EReal) (gx : S1024x128.Idx → EReal) (w bias mean var : S128.Idx → EReal)
    (W : S2x128.Idx → EReal) (b : S2.Idx → EReal) : S256x1024x2.Idx → EReal :=
  fun i => kernelScore px gx w bias mean var W b (i 0) (i 1) (i 2)

variable (m : (ℓ : Loc nD τ sig) → Buf (Elt Ideal) ℓ) (ρ : Dev nD → PrngReg)

/-- The host's transpose after the region, applied to the array the region leaves. -/
theorem tail_eq (c : Dev nD) :
    Pipeline.afterTail₀ cfgs (dats m) 0 (V0 m) [hostOps1] c main_v16
      = transpose S256x1024x2 [1, 2, 0] (result m c) transposes_S2x256x1024_S256x1024x2_1_2_0 := by
  unfold Pipeline.afterTail₀
  show StableHlo.after hostOps1 _ (Proc.devRef .tc main_v16) = _
  after_results
  exact congrArg (fun x => transpose S256x1024x2 [1, 2, 0] x transposes_S2x256x1024_S256x1024x2_1_2_0)
    ((Pipeline.withArrays_arr spec0 launch0.win.arr_inj c _ _ 4).trans (final m c))

/-- The transposed array is the kernel's score of the argument arrays. -/
theorem result_eq (c : Dev nD) :
    transpose S256x1024x2 [1, 2, 0] (result m c) transposes_S2x256x1024_S256x1024x2_1_2_0
      = kernelResult (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  obtain ⟨p, g, cl, rfl⟩ : ∃ (p : Fin 256) (g : Fin 1024) (cl : Fin 2), i = ix3 p g cl := ⟨i 0, i 1, i 2, eq_ix3 i⟩
  have hV : (V m c main_v8 : S2x128.Idx → EReal) = fun i => Folded.weightFold (m ((c : Thread nD τ).loc main_arg2))
      (m ((c : Thread nD τ).loc main_arg5)) (m ((c : Thread nD τ).loc main_arg6)) (i 0) (i 1) := funext fun i => by
    obtain ⟨a, b, rfl⟩ : ∃ (a : Fin 2) (b : Fin 128), i = ix2 a b := ⟨i 0, i 1, eq_ix2 i⟩
    exact Folded.weights_read m c a b
  have hB : ∀ cl : Fin 2, (V m c main_v14 : S1x2.Idx → EReal) (ix2 (0 : Fin 1) cl) = Folded.biasFold (m ((c : Thread nD τ).loc main_arg7))
      (m ((c : Thread nD τ).loc main_arg3)) (m ((c : Thread nD τ).loc main_arg4)) (m ((c : Thread nD τ).loc main_arg2))
      (m ((c : Thread nD τ).loc main_arg5)) (m ((c : Thread nD τ).loc main_arg6)) cl := Folded.bias_read m c
  refine (transpose_apply _ (result m c) transposes_S2x256x1024_S256x1024x2_1_2_0 (ix3 p g cl) (ix3 cl p g)
    (fun b => match b with | ⟨0, _⟩ => rfl | ⟨1, _⟩ => rfl | ⟨2, _⟩ => rfl)).trans ?_
  show score (V m c main_arg0) (V m c main_arg1) (V m c main_v8) (V m c main_v14) cl p g = kernelScore _ _ _ _ _ _ _ _ p g cl
  unfold kernelScore score
  rw [V_main_arg0, V_main_arg1, hV, hB]
  rfl

/-- The run, read: the result at the kernel's score of the arguments, the arguments unchanged. -/
theorem run : θ_run defs (onTc (τ := τ) (main (F := Ideal))) ⟨m, fun _ => 0, ρ⟩ fun r => ∀ c : Dev nD,
      r.2.mem ((c.tc : Thread nD τ).loc main_v16)
        = kernelResult (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(((h c).2 main_v16 (Pipeline.mem_restRefs_of main_v16 (by decide) (by decide))).trans (tail_eq m c)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Whole

end
-- ==== Proof.RefRead.lean ====
/-
  The reference, entry by entry, over the extended reals: at probe row p, gallery row g and class c,

      Σ_k (((P(p,k) − G(g,k))² − mean_k) · (w_k · rsqrt(var_k + ε)) + bias_k) · W(c,k)  +  b_c.
-/
import proofs.«147848_j69956427317336_2_alg».proof.Proof.Gen.ReferenceIdeal.Read
import Idealize.ShloMosaic.Lib.ValueIdx

noncomputable section

namespace Cert.ReferenceIdeal.RefValue

open Cert.ReferenceIdeal Cert.ReferenceIdeal.Read Idealize.ShloMosaic Idealize.ShloMosaic.ValueIdx

/-- The reference's value at `(p, g, c)`. -/
def refScore (px : S256x128.Idx → EReal) (gx : S1024x128.Idx → EReal) (w bias mean var : S128.Idx → EReal)
    (W : S2x128.Idx → EReal) (b : S2.Idx → EReal) (p : Fin 256) (g : Fin 1024) (c : Fin 2) : EReal :=
  (∑ k : Fin 128, ((((px (ix2 p k) - gx (ix2 g k)) * (px (ix2 p k) - gx (ix2 g k))) - mean (ix1 k))
      * (w (ix1 k) * Ideal.rsqrt (var (ix1 k) + Ideal.ofBits .f32 0x3727C5AC#32)) + bias (ix1 k)) * W (ix2 c k))
    + b (ix1 c)

/-- The reference's last stage read at `(p, g, c)`. -/
theorem ref_apply (x0 : (⟨S256x128, .f32⟩ : BufTy).Contents (Elt Ideal)) (x1 : (⟨S1024x128, .f32⟩ : BufTy).Contents (Elt Ideal))
    (x2 x3 x4 x5 : (⟨S128, .f32⟩ : BufTy).Contents (Elt Ideal)) (x6 : (⟨S2x128, .f32⟩ : BufTy).Contents (Elt Ideal))
    (x7 : (⟨S2, .f32⟩ : BufTy).Contents (Elt Ideal)) (p : Fin 256) (g : Fin 1024) (c : Fin 2) :
    val_main_v22 (F := Ideal) x0 x1 x2 x3 x4 x5 x6 x7 (ix3 p g c) = refScore x0 x1 x2 x3 x4 x5 x6 x7 p g c := by
  have e_l : ∀ k, lidx_main_v19 (ix3 p g c) k = ix3 p g k := fun k => funext fun a => Fin.ext (by
    match a with | ⟨0, _⟩ => rfl | ⟨1, _⟩ => rfl | ⟨2, _⟩ => rfl)
  have e_r : ∀ k, ridx_main_v19 (ix3 p g c) k = ix2 c k := fun k => funext fun a => Fin.ext (by
    match a with | ⟨0, _⟩ => rfl | ⟨1, _⟩ => rfl)
  have e0 : ∀ k : Fin 128, idx_main_v0 (idx_main_v2 (ix3 p g k)) = ix2 p k := fun k => funext fun a => Fin.ext (by
    match a with | ⟨0, _⟩ => rfl | ⟨1, _⟩ => rfl)
  have e1 : ∀ k : Fin 128, idx_main_v1 (idx_main_v3 (ix3 p g k)) = ix2 g k := fun k => funext fun a => Fin.ext (by
    match a with | ⟨0, _⟩ => rfl | ⟨1, _⟩ => rfl)
  have e4 : ∀ k : Fin 128, idx_main_v10 (idx_main_v11 (ix3 p g k)) = ix1 k := fun k => funext fun a => Fin.ext (by
    match a with | ⟨0, _⟩ => rfl)
  have e9 : ∀ k : Fin 128, idx_main_v13 (idx_main_v14 (ix3 p g k)) = ix1 k := fun k => funext fun a => Fin.ext (by
    match a with | ⟨0, _⟩ => rfl)
  have e3 : ∀ k : Fin 128, idx_main_v16 (idx_main_v17 (ix3 p g k)) = ix1 k := fun k => funext fun a => Fin.ext (by
    match a with | ⟨0, _⟩ => rfl)
  have e7 : idx_main_v20 (idx_main_v21 (ix3 p g c)) = ix1 c := funext fun a => Fin.ext (by
    match a with | ⟨0, _⟩ => rfl)
  rw [val_main_v22_apply, val_main_v19_apply, val_main_v21_apply, val_main_v20_apply, e7]
  unfold refScore
  refine congrArg (· + x7 (ix1 c)) (Finset.sum_congr rfl fun k _ => ?_)
  rw [e_l, e_r, val_main_v18_apply, val_main_v15_apply, val_main_v17_apply, val_main_v16_apply, e3, val_main_v12_apply,
    val_main_v14_apply, val_main_v13_apply, e9, val_main_v9_apply, val_main_v8_apply, val_main_v7_apply, val_main_v6_apply,
    val_main_cst_apply, val_main_v5_apply, val_main_v4_apply, val_main_v2_apply, val_main_v0_apply, e0, val_main_v3_apply,
    val_main_v1_apply, e1, val_main_v11_apply, val_main_v10_apply, e4]
  rfl

end Cert.ReferenceIdeal.RefValue

end
-- ==== Proof.Bridge.lean ====
/-
  The two programs compute one function. With every input entry a real number and every variance nonnegative, the
  scale w·rsqrt(var + ε) is a real number at every feature (var + ε > 0), so the kernel's expanded score — squares and
  cross term against the folded weights, plus the folded bias — and the reference's score — the classifier applied to
  the normalised squared difference — are the two sides of one identity of real numbers.
-/
import proofs.«147848_j69956427317336_2_alg».proof.Proof.Algebra
import proofs.«147848_j69956427317336_2_alg».proof.Proof.Run
import proofs.«147848_j69956427317336_2_alg».proof.Proof.RefRead

noncomputable section

namespace Cert.Bridge

open Cert.KernelIdeal Idealize.ShloMosaic Idealize.ShloMosaic.ValueIdx

/-- At every `(p, g, c)` the kernel program's score is the reference's. -/
theorem scores_agree (a0 : S256x128.Idx → EReal) (a1 : S1024x128.Idx → EReal) (a2 a3 a4 a5 : S128.Idx → EReal)
    (a6 : S2x128.Idx → EReal) (a7 : S2.Idx → EReal)
    (h0 : ∀ i, ∃ r : ℝ, a0 i = r) (h1 : ∀ i, ∃ r : ℝ, a1 i = r) (h2 : ∀ i, ∃ r : ℝ, a2 i = r) (h3 : ∀ i, ∃ r : ℝ, a3 i = r)
    (h4 : ∀ i, ∃ r : ℝ, a4 i = r) (h5 : ∀ i, ∃ r : ℝ, a5 i = r) (h6 : ∀ i, ∃ r : ℝ, a6 i = r) (h7 : ∀ i, ∃ r : ℝ, a7 i = r)
    (hv : ∀ i, 0 ≤ a5 i) (p : Fin 256) (g : Fin 1024) (c : Fin 2) :
    Whole.kernelScore a0 a1 a2 a3 a4 a5 a6 a7 p g c = Cert.ReferenceIdeal.RefValue.refScore a0 a1 a2 a3 a4 a5 a6 a7 p g c := by
  choose r0 e0 using h0
  choose r1 e1 using h1
  choose r2 e2 using h2
  choose r3 e3 using h3
  choose r4 e4 using h4
  choose r5 e5 using h5
  choose r6 e6 using h6
  choose r7 e7 using h7
  obtain ⟨e, he, hE⟩ := Score.ofBits_eps
  have hv' : ∀ k : Fin 128, 0 ≤ r5 (ix1 k) := fun k => by
    have := hv (ix1 k); rw [e5] at this; exact_mod_cast this
  have hs : ∀ k : Fin 128, a2 (ix1 k) * Ideal.rsqrt (a5 (ix1 k) + Ideal.ofBits .f32 0x3727C5AC#32)
      = ((r2 (ix1 k) * (Real.sqrt (r5 (ix1 k) + e))⁻¹ : ℝ) : EReal) := fun k => by
    rw [e2, e5, hE, ← EReal.coe_add, Score.rsqrt_pos (by have := hv' k; linarith), ← EReal.coe_mul]
  show (((∑ k : Fin 128, (a0 (ix2 p k) * a0 (ix2 p k)) * Folded.weightFold a2 a5 a6 c k)
        + (∑ k : Fin 128, (a1 (ix2 g k) * a1 (ix2 g k)) * Folded.weightFold a2 a5 a6 c k))
      - Ideal.ofBits .f32 0x40000000#32 * (∑ k : Fin 128, (a0 (ix2 p k) * Folded.weightFold a2 a5 a6 c k) * a1 (ix2 g k)))
    + Folded.biasFold a7 a3 a4 a2 a5 a6 c = _
  unfold Folded.weightFold Folded.biasFold Folded.scale Cert.ReferenceIdeal.RefValue.refScore
  simp only [hs]
  simp only [e0, e1, e3, e4, e6, e7, Score.ofBits_two, Score.ofBits_zero]
  exact Score.score_law (fun k => r0 (ix2 p k)) (fun k => r1 (ix2 g k)) (fun k => r2 (ix1 k) * (Real.sqrt (r5 (ix1 k) + e))⁻¹)
    (fun k => r3 (ix1 k)) (fun k => r4 (ix1 k)) (fun k => r6 (ix2 c k)) (r7 (ix1 c))

end Cert.Bridge

end
-- ==== Proof.Domain.lean ====
/-
  The precondition read back: every entry of every input is a real number (its absolute value is below +∞), and every
  variance is nonnegative.
-/
import proofs.«147848_j69956427317336_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Domain

open Cert.Pre_finite_inputs Idealize.ShloMosaic Idealize.ShloMosaic.ValueIdx

instance : Subsingleton S_.Idx := ⟨fun a b => funext fun d => d.elim0⟩

/-- The pattern of +∞ denotes ⊤. -/
theorem ofBits_inf : Ideal.ofBits .f32 0x7F800000#32 = ⊤ := by simp [Ideal.ofBits, Ideal.ieee]

/-- The pattern of +0.0 denotes 0. -/
theorem ofBits_zero : Ideal.ofBits .f32 0x00000000#32 = 0 := by simp [Ideal.ofBits, Ideal.ieee]

/-- An extended real whose absolute value compares below +∞ is a real number. -/
theorem real_of_abs_lt_inf (x : EReal) (h : Ideal.cmp .olt (max x (-x)) (Ideal.ofBits .f32 0x7F800000#32) = 1#1) :
    ∃ r : ℝ, x = r := by
  rw [ofBits_inf] at h
  have h' : max x (-x) < ⊤ := by
    by_contra hc
    simp [Ideal.cmp, hc] at h
  induction x using EReal.rec with
  | bot => simp at h'
  | coe r => exact ⟨r, rfl⟩
  | top => simp at h'

/-- `jnp.all(|x| < inf)` holding gives every entry of `x` as a real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = r := by
  have hi := Host.reduce_andi_all _ _ hr hu ix0 h i
  have hbc : broadcastInDim s ![] hb (constant (F := Ideal) S_ .f32 0x7F800000#32) i = Ideal.ofBits .f32 0x7F800000#32 :=
    broadcastInDim_apply _ hb _ i ix0 (fun a => a.elim0)
  have hi' : Ideal.cmp .olt (max (x i) (-(x i))) (broadcastInDim s ![] hb (constant (F := Ideal) S_ .f32 0x7F800000#32) i) = 1#1 := hi
  rw [hbc] at hi'
  exact real_of_abs_lt_inf (x i) hi'

/-- `jnp.all(x >= 0)` holding gives every entry of `x` nonnegative. -/
theorem all_nonneg {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .oge x (broadcastInDim s ![] hb (constant (F := Ideal) S_ .f32 0x00000000#32)))
      (constantI S_ 1 1#1) hr hu ix0 = 1#1) (i : s.Idx) : 0 ≤ x i := by
  have hi := Host.reduce_andi_all _ _ hr hu ix0 h i
  have hbc : broadcastInDim s ![] hb (constant (F := Ideal) S_ .f32 0x00000000#32) i = Ideal.ofBits .f32 0x00000000#32 :=
    broadcastInDim_apply _ hb _ i ix0 (fun a => a.elim0)
  have hi' : Ideal.cmp .oge (x i) (broadcastInDim s ![] hb (constant (F := Ideal) S_ .f32 0x00000000#32) i) = 1#1 := hi
  rw [hbc, ofBits_zero] at hi'
  by_contra hc
  simp [Ideal.cmp, hc] at hi'

variable [Facts]
open Facts

/-- The printed precondition, decoded. -/
theorem decode (a0 : FVec Ideal S256x128 .f32) (a1 : FVec Ideal S1024x128 .f32) (a2 a3 a4 a5 : FVec Ideal S128 .f32)
    (a6 : FVec Ideal S2x128 .f32) (a7 : FVec Ideal S2 .f32)
    (h : fn (F := Ideal) a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ (∀ i, 0 ≤ a5 i) := by
  have h0 := congrFun h ix0
  dsimp only [fn, fn_part1, fn_part2] at h0
  simp only [andi, IntOp.andi_eq_one] at h0
  obtain ⟨⟨⟨⟨⟨⟨⟨⟨h0', h1⟩, h2⟩, h3⟩, h4⟩, h5⟩, h6⟩, h7⟩, h8⟩ := h0
  exact ⟨all_real a0 _ _ _ h0', all_real a1 _ _ _ h1, all_real a2 _ _ _ h2, all_real a3 _ _ _ h3, all_real a4 _ _ _ h4,
    all_real a5 _ _ _ h5, all_real a6 _ _ _ h6, all_real a7 _ _ _ h7, all_nonneg a5 _ _ _ h8⟩

end Cert.Pre_finite_inputs.Domain

end
-- ==== Proof.lean ====
/-
  The pairwise batch-normalised classifier score. Reference: for probe row p, gallery row g and class c,
      Σ_f (((P(p,f) − G(g,f))² − mean_f) · s_f + bias_f) · W(c,f) + b_c,      s_f = w_f · rsqrt(var_f + ε).
  Kernel: the host folds the normalisation into the class weights, V(c,f) = s_f W(c,f), and into the bias,
  b'_c = b_c + Σ_f (bias_f − mean_f s_f) W(c,f); the kernel body expands the square,
      Σ_f P(p,f)² V(c,f) + Σ_f G(g,f)² V(c,f) − 2 Σ_f (P(p,f) V(c,f)) G(g,f) + b'_c,
  one block of 128 probe rows per grid point, class-major; the host transposes the result to probe-major.

  The two are equal wherever every quantity is finite: the inputs by the precondition, and s_f because a variance is
  nonnegative and ε > 0 (at var_f + ε = 0 the reciprocal root is +∞, the expanded form meets ∞ − ∞ where the
  reference's 0 · ∞ is 0, and the two differ: hence the precondition's last conjunct).

  Modules: Algebra (the identity of reals and the literals), Body (the body entry by entry), Blocks (the blocks cover the
  array), Folded (the host's folding read at an index), Run (the kernel program's run read), RefRead (the reference
  entry by entry), Domain (the precondition decoded), Bridge (the two scores agree). The three frames are the generated
  ones; the idealization rewrote nothing.
-/
import proofs.«147848_j69956427317336_2_alg».proof.Defs
import proofs.«147848_j69956427317336_2_alg».proof.Proof.Gen.Kernel
import proofs.«147848_j69956427317336_2_alg».proof.Proof.Gen.Kernel.Skeleton
import proofs.«147848_j69956427317336_2_alg».proof.Proof.Gen.Kernel.Launch
import proofs.«147848_j69956427317336_2_alg».proof.Proof.Gen.Kernel.Points
import proofs.«147848_j69956427317336_2_alg».proof.Proof.Gen.Kernel.Frame
import proofs.«147848_j69956427317336_2_alg».proof.Proof.Gen.KernelIdeal
import proofs.«147848_j69956427317336_2_alg».proof.Proof.Gen.KernelIdeal.Skeleton
import proofs.«147848_j69956427317336_2_alg».proof.Proof.Gen.KernelIdeal.Launch
import proofs.«147848_j69956427317336_2_alg».proof.Proof.Gen.KernelIdeal.Points
import proofs.«147848_j69956427317336_2_alg».proof.Proof.Gen.KernelIdeal.Frame
import proofs.«147848_j69956427317336_2_alg».proof.Proof.Gen.ReferenceIdeal
import proofs.«147848_j69956427317336_2_alg».proof.Proof.Gen.Pre_finite_inputs
import proofs.«147848_j69956427317336_2_alg».proof.Proof.Gen.ReferenceIdeal.Run
import proofs.«147848_j69956427317336_2_alg».proof.Proof.Gen.ReferenceIdeal.Read
import proofs.«147848_j69956427317336_2_alg».proof.Proof.Bridge
import proofs.«147848_j69956427317336_2_alg».proof.Proof.Domain
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result array: the kernel's run read (Run), the reference's generated run read entry
    by entry (RefRead), the arguments' agreement, and the identity of the two scores under the decoded precondition. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  rw [g0, g1, g2, g3, g4, g5, g6, g7, Cert.ReferenceIdeal.Read.val_main_v22_eq]
  obtain ⟨f0, f1, f2, f3, f4, f5, f6, f7, fv⟩ := Cert.Pre_finite_inputs.Domain.decode _ _ _ _ _ _ _ _ (hpre c)
  funext i
  obtain ⟨p, g, cl, rfl⟩ : ∃ (p : Fin 256) (g : Fin 1024) (cl : Fin 2), i = ix3 p g cl := ⟨i 0, i 1, i 2, eq_ix3 i⟩
  rw [Cert.ReferenceIdeal.RefValue.ref_apply]
  exact (Cert.Bridge.scores_agree _ _ _ _ _ _ _ _ f0 f1 f2 f3 f4 f5 f6 f7 fv p g cl).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
